-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x512 : Shape := ⟨2, ![2048, 512]⟩
abbrev S2048x50 : Shape := ⟨2, ![2048, 50]⟩
abbrev S100000x512 : Shape := ⟨2, ![100000, 512]⟩
abbrev S1024x512 : Shape := ⟨2, ![1024, 512]⟩
abbrev S512 : Shape := ⟨1, ![512]⟩
abbrev S512x100000 : Shape := ⟨2, ![512, 100000]⟩
abbrev S100000 : Shape := ⟨1, ![100000]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S100000x512 : S_.BroadcastsInDim S100000x512 (![] : Fin 0 → Fin S100000x512.rank)
  reducesTo_S100000x512_S_d0_1 : S100000x512.ReducesTo [0, 1] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x100000 : S_.BroadcastsInDim S512x100000 (![] : Fin 0 → Fin S512x100000.rank)
  reducesTo_S512x100000_S_d0_1 : S512x100000.ReducesTo [0, 1] S_
  bcast_S_S100000 : S_.BroadcastsInDim S100000 (![] : Fin 0 → Fin S100000.rank)
  reducesTo_S100000_S_d0 : S100000.ReducesTo [0] S_

variable [Facts]

def fn_part1 {F : FTy → Type} [FloatOps F] (main_arg5 : FVec F S512x100000 .f32) (main_arg6 : FVec F S100000 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x100000 .f32 := Host.absf main_arg5
  let main_cst_6 : FVec F S_ .f32 := constant S_ .f32 0x7F800000#32
  let main_v20 : FVec F S512x100000 .f32 := broadcastInDim S512x100000 ![] bcast_S_S512x100000 main_cst_6
  let main_v21 : IVec S512x100000 1 := cmpf .olt main_v19 main_v20
  let main_c_7 : IVec S_ 1 := constantI S_ 1 1#1
  let main_v22 : IVec S_ 1 := (fun x v => Host.reduce IntOp.andi x v reducesTo_S512x100000_S_d0_1 h_S_) main_v21 main_c_7
  let main_v23 : IVec S_ 1 := andi main_v18 main_v22
  let main_v24 : FVec F S100000 .f32 := Host.absf main_arg6
  let main_cst_8 : FVec F S_ .f32 := constant S_ .f32 0x7F800000#32
  let main_v25 : FVec F S100000 .f32 := broadcastInDim S100000 ![] bcast_S_S100000 main_cst_8
  let main_v26 : IVec S100000 1 := cmpf .olt main_v24 main_v25
  let main_c_9 : IVec S_ 1 := constantI S_ 1 1#1
  let main_v27 : IVec S_ 1 := (fun x v => Host.reduce IntOp.andi x v reducesTo_S100000_S_d0 h_S_) main_v26 main_c_9
  let main_v28 : IVec S_ 1 := andi main_v23 main_v27
  main_v28

def fn {F : FTy → Type} [FloatOps F] (main_arg0 : FVec F S2048x512 .f32) (main_arg1 : IVec S2048x50 32) (main_arg2 : FVec F S100000x512 .f32) (main_arg3 : FVec F S1024x512 .f32) (main_arg4 : FVec F S512 .f32) (main_arg5 : FVec F S512x100000 .f32) (main_arg6 : FVec F S100000 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S100000x512 .f32 := Host.absf main_arg2
  let main_cst_0 : FVec F S_ .f32 := constant S_ .f32 0x7F800000#32
  let main_v5 : FVec F S100000x512 .f32 := broadcastInDim S100000x512 ![] bcast_S_S100000x512 main_cst_0
  let main_v6 : IVec S100000x512 1 := cmpf .olt main_v4 main_v5
  let main_c_1 : IVec S_ 1 := constantI S_ 1 1#1
  let main_v7 : IVec S_ 1 := (fun x v => Host.reduce IntOp.andi x v reducesTo_S100000x512_S_d0_1 h_S_) main_v6 main_c_1
  let main_v8 : IVec S_ 1 := andi main_v3 main_v7
  let main_v9 : FVec F S1024x512 .f32 := Host.absf main_arg3
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg5 main_arg6 main_v13 main_v16
-- ==== Kernel.lean ====
abbrev S2048x512 : Shape := ⟨2, ![2048, 512]⟩
abbrev S2048x50 : Shape := ⟨2, ![2048, 50]⟩
abbrev S100000x512 : Shape := ⟨2, ![100000, 512]⟩
abbrev S1024x512 : Shape := ⟨2, ![1024, 512]⟩
abbrev S512 : Shape := ⟨1, ![512]⟩
abbrev S512x100000 : Shape := ⟨2, ![512, 100000]⟩
abbrev S100000 : Shape := ⟨1, ![100000]⟩
abbrev S_ : Shape := ⟨0, ![]⟩
abbrev S2048x50x1 : Shape := ⟨3, ![2048, 50, 1]⟩
abbrev S2048x50x512 : Shape := ⟨3, ![2048, 50, 512]⟩
abbrev S512x512 : Shape := ⟨2, ![512, 512]⟩
abbrev S1x512 : Shape := ⟨2, ![1, 512]⟩
abbrev S512x101120 : Shape := ⟨2, ![512, 101120]⟩
abbrev S101120 : Shape := ⟨1, ![101120]⟩
abbrev S1x101120 : Shape := ⟨2, ![1, 101120]⟩
abbrev S2048x100000 : Shape := ⟨2, ![2048, 100000]⟩
abbrev S512x1280 : Shape := ⟨2, ![512, 1280]⟩
abbrev S1x1280 : Shape := ⟨2, ![1, 1280]⟩
abbrev S2048x1280 : Shape := ⟨2, ![2048, 1280]⟩

abbrev nBuf : Space → Nat
  | .hbm => 39
  | .vmem => 7
  | .smem => 0
  | _ => 0

abbrev bufTy : (tb : Table) → Fin (tcTables nBuf tb) → BufTy
  | .hbm, ⟨0, _⟩ => ⟨S2048x512, .f32⟩
  | .hbm, ⟨1, _⟩ => ⟨S2048x50, .i32⟩
  | .hbm, ⟨2, _⟩ => ⟨S100000x512, .f32⟩
  | .hbm, ⟨3, _⟩ => ⟨S1024x512, .f32⟩
  | .hbm, ⟨4, _⟩ => ⟨S512, .f32⟩
  | .hbm, ⟨5, _⟩ => ⟨S512x100000, .f32⟩
  | .hbm, ⟨6, _⟩ => ⟨S100000, .f32⟩
  | .hbm, ⟨7, _⟩ => ⟨S_, .i32⟩
  | .hbm, ⟨8, _⟩ => ⟨S2048x50, .i32⟩
  | .hbm, ⟨9, _⟩ => ⟨S2048x50, .i1⟩
  | .hbm, ⟨10, _⟩ => ⟨S_, .i32⟩
  | .hbm, ⟨11, _⟩ => ⟨S2048x50, .i32⟩
  | .hbm, ⟨12, _⟩ => ⟨S2048x50, .i32⟩
  | .hbm, ⟨13, _⟩ => ⟨S2048x50, .i32⟩
  | .hbm, ⟨14, _⟩ => ⟨S2048x50x1, .i32⟩
  | .hbm, ⟨15, _⟩ => ⟨S2048x50x512, .f32⟩
  | .hbm, ⟨16, _⟩ => ⟨S_, .f32⟩
  | .hbm, ⟨17, _⟩ => ⟨S2048x512, .f32⟩
  | .hbm, ⟨18, _⟩ => ⟨S_, .f32⟩
  | .hbm, ⟨19, _⟩ => ⟨S2048x512, .f32⟩
  | .hbm, ⟨20, _⟩ => ⟨S2048x512, .f32⟩
  | .hbm, ⟨21, _⟩ => ⟨S512x512, .f32⟩
  | .hbm, ⟨22, _⟩ => ⟨S512x512, .f32⟩
  | .hbm, ⟨23, _⟩ => ⟨S2048x512, .f32⟩
  | .hbm, ⟨24, _⟩ => ⟨S2048x512, .f32⟩
  | .hbm, ⟨25, _⟩ => ⟨S2048x512, .f32⟩
  | .hbm, ⟨26, _⟩ => ⟨S1x512, .f32⟩
  | .hbm, ⟨27, _⟩ => ⟨S2048x512, .f32⟩
  | .hbm, ⟨28, _⟩ => ⟨S2048x512, .f32⟩
  | .hbm, ⟨29, _⟩ => ⟨S2048x512, .bf16⟩
  | .hbm, ⟨30, _⟩ => ⟨S_, .i32⟩
  | .hbm, ⟨31, _⟩ => ⟨S_, .f32⟩
  | .hbm, ⟨32, _⟩ => ⟨S512x101120, .f32⟩
  | .hbm, ⟨33, _⟩ => ⟨S512x101120, .bf16⟩
  | .hbm, ⟨34, _⟩ => ⟨S_, .i32⟩
  | .hbm, ⟨35, _⟩ => ⟨S_, .f32⟩
  | .hbm, ⟨36, _⟩ => ⟨S101120, .f32⟩
  | .hbm, ⟨37, _⟩ => ⟨S1x101120, .f32⟩
  | .hbm, ⟨38, _⟩ => ⟨S2048x100000, .f32⟩
  | .local _ .vmem, ⟨0, _⟩ => ⟨S2048x512, .bf16⟩
  | .local _ .vmem, ⟨1, _⟩ => ⟨S512x1280, .bf16⟩
  | .local _ .vmem, ⟨2, _⟩ => ⟨S512x1280, .bf16⟩
  | .local _ .vmem, ⟨3, _⟩ => ⟨S1x1280, .f32⟩
  | .local _ .vmem, ⟨4, _⟩ => ⟨S1x1280, .f32⟩
  | .local _ .vmem, ⟨5, _⟩ => ⟨S2048x1280, .f32⟩
  | .local _ .vmem, ⟨6, _⟩ => ⟨S2048x1280, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_2 : Ref sig .tc := ⟨.hbm, 30, rfl⟩
abbrev main_call0_v0 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_call1_v0 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![79], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S2048x50 : S_.BroadcastsInDim S2048x50 (![] : Fin 0 → Fin S2048x50.rank)
  bcast_S2048x50_S2048x50x1_0_1 : S2048x50.BroadcastsInDim S2048x50x1 (![0, 1] : Fin 2 → Fin S2048x50x1.rank)
  reducesTo_S2048x50x512_S2048x512_d1 : S2048x50x512.ReducesTo [1] S2048x512
  h_S_ : 0 < S_.numel
  bcast_S_S2048x512 : S_.BroadcastsInDim S2048x512 (![] : Fin 0 → Fin S2048x512.rank)
  slices_S1024x512_S512x512_0_0 : S1024x512.Slices ![0, 0] S512x512
  slices_S1024x512_S512x512_512_0 : S1024x512.Slices ![512, 0] S512x512
  bcast_S512_S1x512_1 : S512.BroadcastsInDim S1x512 (![1] : Fin 1 → Fin S1x512.rank)
  bcast_S1x512_S2048x512_0_1 : S1x512.BroadcastsInDim S2048x512 (![0, 1] : Fin 2 → Fin S2048x512.rank)
  bitsLt_bf16_f32 : FTy.bits .bf16 < FTy.bits .f32
  pads_S512x100000_S512x101120_000_011200 : S512x100000.Pads (![0, 0] : Fin 2 → Nat) ![0, 1120] ![0, 0] S512x101120
  pads_S100000_S101120_011200 : S100000.Pads (![0] : Fin 1 → Nat) ![1120] ![0] S101120
  shapeCasts_S101120_S1x101120 : S101120.ShapeCasts S1x101120
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x1280_S512x1280_0_0 : ∀ a, (![0, 0] : Fin 2 → Nat) a + S512x1280.size a ≤ S512x1280.size a
  h_S512x1280 : 0 < S512x1280.numel
  shapeCasts_S512x1280_S512x1280 : S512x1280.ShapeCasts S512x1280
  inb_S1x1280_S1x1280_0_0 : ∀ a, (![0, 0] : Fin 2 → Nat) a + S1x1280.size a ≤ S1x1280.size a
  h_S1x1280 : 0 < S1x1280.numel
  shapeCasts_S1x1280_S1x1280 : S1x1280.ShapeCasts S1x1280
  broadcasts_S1x1280_S2048x1280 : S1x1280.Broadcasts S2048x1280
  inb_S2048x1280_S2048x1280_0_0 : ∀ a, (![0, 0] : Fin 2 → Nat) a + S2048x1280.size a ≤ S2048x1280.size a
  h_S2048x1280 : 0 < S2048x1280.numel
  gather_S100000x512_S2048x50x1_S2048x50x512_2_0_n_n_0_2_1512_wf : GatherDims.WF S100000x512 S2048x50x1 S2048x50x512 [2] [0] [] [0] [] 2 ![1, 512]
  dot_S2048x512_S512x512_S2048x512_1_0_0_1_n_n_wf : DotDims.WF S2048x512 S512x512 S2048x512 [1] [0] [0] [1] [] []
  dot_S2048x512_S512x1280_S2048x1280_1_0_0_1_n_n_wf : DotDims.WF S2048x512 S512x1280 S2048x1280 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S2048x512.size a
  hwx0_0 : ∀ i : grid0.Coords, EltTy.bits .bf16 = 32 ∨ (Rect.block (s := S2048x512) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1280.size a ≤ S512x101120.size a
  hwx0_1 : ∀ i : grid0.Coords, EltTy.bits .bf16 = 32 ∨ (Rect.block (s := S512x101120) S512x1280.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1280.size a ≤ S1x101120.size a
  hwx0_2 : ∀ i : grid0.Coords, EltTy.bits .f32 = 32 ∨ (Rect.block (s := S1x101120) S1x1280.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S2048x1280.size a < S2048x100000.size a
  hwx0_3 : ∀ i : grid0.Coords, EltTy.bits .f32 = 32 ∨ (Rect.unit (s := S2048x100000) (fun a => cc0_transform_3 i a * S2048x1280.size a) (fun a => (Pipeline.Clip.of (cc0_transform_3 i a) (S2048x1280.size a) (S2048x100000.size a)).extent (S2048x1280.size a)) fun a => Pipeline.Clip.inb (Pipeline.Clip.ok_of (hstart0_3 i a))).WholeWords (EltTy.packing .f32)
  hwxs0_3 : ∀ i : grid0.Coords, EltTy.bits .f32 = 32 ∨ (Rect.unit (s := S2048x1280) (fun _ => 0) (fun a => (Pipeline.Clip.of (cc0_transform_3 i a) (S2048x1280.size a) (S2048x100000.size a)).extent (S2048x1280.size a)) fun a => (Nat.zero_add _).trans_le (Pipeline.Clip.extent_le (Pipeline.Clip.ok_of (hstart0_3 i a)))).WholeWords (EltTy.packing .f32)

variable [Facts₀]

def gather_S100000x512_S2048x50x1_S2048x50x512_2_0_n_n_0_2_1512 : GatherDims S100000x512 S2048x50x1 S2048x50x512 where
  offsetDims := [2]
  collapsedSliceDims := [0]
  operandBatchingDims := []
  startIndicesBatchingDims := []
  startIndexMap := [0]
  indexVectorDim := 2
  sliceSizes := ![1, 512]
  wf := gather_S100000x512_S2048x50x1_S2048x50x512_2_0_n_n_0_2_1512_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S2048x512_S512x1280_S2048x1280_1_0_0_1_n_n : DotDims S2048x512 S512x1280 S2048x1280 where
  lhsContracting := [1]
  rhsContracting := [0]
  lhsNonContracting := [0]
  rhsNonContracting := [1]
  lhsBatch := []
  rhsBatch := []
  wf := dot_S2048x512_S512x1280_S2048x1280_1_0_0_1_n_n_wf

abbrev win0_0 : Pipeline.Window sig grid0 :=
  Pipeline.Window.ofSpec (Memref.whole main_v18) S2048x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v20) S512x1280.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1x1280.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpecClip (Memref.whole main_v23) S2048x1280.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2048x512 : Shape := ⟨2, ![2048, 512]⟩
abbrev S2048x50 : Shape := ⟨2, ![2048, 50]⟩
abbrev S100000x512 : Shape := ⟨2, ![100000, 512]⟩
abbrev S1024x512 : Shape := ⟨2, ![1024, 512]⟩
abbrev S512 : Shape := ⟨1, ![512]⟩
abbrev S512x100000 : Shape := ⟨2, ![512, 100000]⟩
abbrev S100000 : Shape := ⟨1, ![100000]⟩
abbrev S_ : Shape := ⟨0, ![]⟩
abbrev S2048x50x1 : Shape := ⟨3, ![2048, 50, 1]⟩
abbrev S2048x50x512 : Shape := ⟨3, ![2048, 50, 512]⟩
abbrev S2048x1024 : Shape := ⟨2, ![2048, 1024]⟩
abbrev S1x512 : Shape := ⟨2, ![1, 512]⟩
abbrev S2048x100000 : Shape := ⟨2, ![2048, 100000]⟩
abbrev S1x100000 : Shape := ⟨2, ![1, 100000]⟩

abbrev nBuf : Space → Nat
  | .hbm => 30
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x50, .i32⟩
  | .hbm, ⟨2, _⟩ => ⟨S100000x512, .f32⟩
  | .hbm, ⟨3, _⟩ => ⟨S1024x512, .f32⟩
  | .hbm, ⟨4, _⟩ => ⟨S512, .f32⟩
  | .hbm, ⟨5, _⟩ => ⟨S512x100000, .f32⟩
  | .hbm, ⟨6, _⟩ => ⟨S100000, .f32⟩
  | .hbm, ⟨7, _⟩ => ⟨S_, .i32⟩
  | .hbm, ⟨8, _⟩ => ⟨S2048x50, .i32⟩
  | .hbm, ⟨9, _⟩ => ⟨S2048x50, .i1⟩
  | .hbm, ⟨10, _⟩ => ⟨S_, .i32⟩
  | .hbm, ⟨11, _⟩ => ⟨S2048x50, .i32⟩
  | .hbm, ⟨12, _⟩ => ⟨S2048x50, .i32⟩
  | .hbm, ⟨13, _⟩ => ⟨S2048x50, .i32⟩
  | .hbm, ⟨14, _⟩ => ⟨S2048x50x1, .i32⟩
  | .hbm, ⟨15, _⟩ => ⟨S2048x50x512, .f32⟩
  | .hbm, ⟨16, _⟩ => ⟨S_, .f32⟩
  | .hbm, ⟨17, _⟩ => ⟨S2048x512, .f32⟩
  | .hbm, ⟨18, _⟩ => ⟨S_, .f32⟩
  | .hbm, ⟨19, _⟩ => ⟨S2048x512, .f32⟩
  | .hbm, ⟨20, _⟩ => ⟨S2048x512, .f32⟩
  | .hbm, ⟨21, _⟩ => ⟨S2048x1024, .f32⟩
  | .hbm, ⟨22, _⟩ => ⟨S2048x512, .f32⟩
  | .hbm, ⟨23, _⟩ => ⟨S1x512, .f32⟩
  | .hbm, ⟨24, _⟩ => ⟨S2048x512, .f32⟩
  | .hbm, ⟨25, _⟩ => ⟨S2048x512, .f32⟩
  | .hbm, ⟨26, _⟩ => ⟨S2048x100000, .f32⟩
  | .hbm, ⟨27, _⟩ => ⟨S1x100000, .f32⟩
  | .hbm, ⟨28, _⟩ => ⟨S2048x100000, .f32⟩
  | .hbm, ⟨29, _⟩ => ⟨S2048x100000, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩

abbrev nD : Nat := 1
abbrev τ : Topo := Topo.v7x

variable {F : FTy → Type} [FloatOps F]

class Facts₀ : Prop where
  bcast_S_S2048x50 : S_.BroadcastsInDim S2048x50 (![] : Fin 0 → Fin S2048x50.rank)
  bcast_S2048x50_S2048x50x1_0_1 : S2048x50.BroadcastsInDim S2048x50x1 (![0, 1] : Fin 2 → Fin S2048x50x1.rank)
  reducesTo_S2048x50x512_S2048x512_d1 : S2048x50x512.ReducesTo [1] S2048x512
  h_S_ : 0 < S_.numel
  bcast_S_S2048x512 : S_.BroadcastsInDim S2048x512 (![] : Fin 0 → Fin S2048x512.rank)
  concatenates_S2048x512_S2048x512_S2048x1024_d1 : Shape.Concatenates [S2048x512, S2048x512] S2048x1024 1
  bcast_S512_S1x512_1 : S512.BroadcastsInDim S1x512 (![1] : Fin 1 → Fin S1x512.rank)
  bcast_S1x512_S2048x512_0_1 : S1x512.BroadcastsInDim S2048x512 (![0, 1] : Fin 2 → Fin S2048x512.rank)
  bcast_S100000_S1x100000_1 : S100000.BroadcastsInDim S1x100000 (![1] : Fin 1 → Fin S1x100000.rank)
  bcast_S1x100000_S2048x100000_0_1 : S1x100000.BroadcastsInDim S2048x100000 (![0, 1] : Fin 2 → Fin S2048x100000.rank)
  gather_S100000x512_S2048x50x1_S2048x50x512_2_0_n_n_0_2_1512_wf : GatherDims.WF S100000x512 S2048x50x1 S2048x50x512 [2] [0] [] [0] [] 2 ![1, 512]
  dot_S2048x1024_S1024x512_S2048x512_1_0_0_1_n_n_wf : DotDims.WF S2048x1024 S1024x512 S2048x512 [1] [0] [0] [1] [] []
  dot_S2048x512_S512x100000_S2048x100000_1_0_0_1_n_n_wf : DotDims.WF S2048x512 S512x100000 S2048x100000 [1] [0] [0] [1] [] []

variable [Facts₀]

def gather_S100000x512_S2048x50x1_S2048x50x512_2_0_n_n_0_2_1512 : GatherDims S100000x512 S2048x50x1 S2048x50x512 where
  offsetDims := [2]
  collapsedSliceDims := [0]
  operandBatchingDims := []
  startIndicesBatchingDims := []
  startIndexMap := [0]
  indexVectorDim := 2
  sliceSizes := ![1, 512]
  wf := gather_S100000x512_S2048x50x1_S2048x50x512_2_0_n_n_0_2_1512_wf
def dot_S2048x1024_S1024x512_S2048x512_1_0_0_1_n_n : DotDims S2048x1024 S1024x512 S2048x512 where
  lhsContracting := [1]
  rhsContracting := [0]
  lhsNonContracting := [0]
  rhsNonContracting := [1]
  lhsBatch := []
  rhsBatch := []
  wf := dot_S2048x1024_S1024x512_S2048x512_1_0_0_1_n_n_wf
def dot_S2048x512_S512x100000_S2048x100000_1_0_0_1_n_n : DotDims S2048x512 S512x100000 S2048x100000 where
  lhsContracting := [1]
  rhsContracting := [0]
  lhsNonContracting := [0]
  rhsNonContracting := [1]
  lhsBatch := []
  rhsBatch := []
  wf := dot_S2048x512_S512x100000_S2048x100000_1_0_0_1_n_n_wf

class Facts : Prop extends Facts₀ where

variable [Facts]
-- ==== Proof.LibPlainDot.lean ====
/-
  A plain matrix product read at one entry.

  For the dimension numbers of an `M × K` by `K × N` product (the left operand contracted on its columns, the
  right on its rows, no batch axis) the entry at row `p`, column `q` of a `tpu.matmul` into the zero
  accumulator, and of the host's `dot_general`, is at the ideal values the sum over `k` of the left operand at
  `(p, k)` times the right operand at `(k, q)`. The contraction index of the dimension numbers is re-indexed by
  its one coordinate, so the sum runs over the literal `Fin K`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : Nat}

/-- The left operand's index at output entry `(p, q)` and contraction position `k` is `(p, k)`. -/
theorem lhsIdx_plain (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output entry `(p, q)` and contraction position `k` is `(k, q)`. -/
theorem rhsIdx_plain (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A `tpu.matmul` into the zero accumulator, at entry `(p, q)`. -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  exact Finset.sum_congr rfl fun k _ => by rw [lhsIdx_plain, rhsIdx_plain]

/-- The host's `dot_general`, at entry `(p, q)`. -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  exact Finset.sum_congr rfl fun k _ => by rw [lhsIdx_plain, rhsIdx_plain]

end Cert.Lib.PlainDot

end
-- ==== Proof.LibRowForms.lean ====
/-
  General facts about arrays with a leading unit axis, read at an entry.

  * A [1, B, C] slab viewed as a [B, C] matrix reads, at (p, q), the slab at (0, p, q) (unslab_apply).
  * A [1, M] row viewed as a vector of length M reads, at p, the row at (0, p) (rowVec_apply).
  * A [1, N] row repeated down M rows reads, at (p, q), the row at (0, q) (rowBroadcast_apply).
  * A vector of length M viewed as a [1, M] row reads, at (0, p), the vector at p (vecRow_apply).
-/
import Idealize.ShloMosaic.Lib.ValueIdx
import Idealize.ShloMosaic.Lib.Pipeline.Value

noncomputable section

namespace Cert.Lib.RowForms

open Idealize.ShloMosaic Idealize.ShloMosaic.ValueIdx

variable {α : Type} {M N B C : Nat}

/-- A [1, B, C] slab viewed as a [B, C] matrix: entry (p, q) is entry (0, p, q). -/
theorem unslab_apply (v : (⟨3, ![1, B, C]⟩ : Shape).Idx → α) (h : (⟨3, ![1, B, C]⟩ : Shape).ShapeCasts ⟨2, ![B, C]⟩)
    (p : Fin B) (q : Fin C) : shapeCast ⟨2, ![B, C]⟩ v h (ix2 p q) = v (ix3 (0 : Fin 1) p q) :=
  shapeCast_apply v h (ix2 p q) (ix3 (0 : Fin 1) p q) (by
    rw [Shape.rowMajor_val_two, Shape.rowMajor_val_three]
    show (0 * B + p.val) * C + q.val = p.val * C + q.val
    rw [Nat.zero_mul, Nat.zero_add])

/-- A [1, M] row viewed as a vector of length M: entry p is entry (0, p). -/
theorem rowVec_apply (v : (⟨2, ![1, M]⟩ : Shape).Idx → α) (h : (⟨2, ![1, M]⟩ : Shape).ShapeCasts ⟨1, ![M]⟩)
    (p : Fin M) : shapeCast ⟨1, ![M]⟩ v h (ix1 p) = v (ix2 (0 : Fin 1) p) :=
  shapeCast_apply v h (ix1 p) (ix2 (0 : Fin 1) p) (by
    rw [Shape.rowMajor_val_one, Shape.rowMajor_val_two]
    show 0 * M + p.val = p.val
    rw [Nat.zero_mul, Nat.zero_add])

/-- A [1, N] row repeated down M rows: entry (p, q) is the row's entry (0, q). -/
theorem rowBroadcast_apply (v : (⟨2, ![1, N]⟩ : Shape).Idx → α) (h : (⟨2, ![1, N]⟩ : Shape).Broadcasts ⟨2, ![M, N]⟩)
    (p : Fin M) (q : Fin N) : broadcastTo ⟨2, ![M, N]⟩ v h (ix2 p q) = v (ix2 (0 : Fin 1) q) :=
  broadcastTo_apply v h (ix2 p q) (ix2 (0 : Fin 1) q) (fun a => match a with
    | ⟨0, _⟩ => by show 0 = if (1 : Nat) = 1 then 0 else p.val; rw [if_pos rfl]
    | ⟨1, _⟩ => by
        show q.val = if N = 1 then 0 else q.val
        split
        · have := q.isLt; omega
        · rfl)

/-- A vector of length M viewed as a [1, M] row: entry (0, p) is entry p. -/
theorem vecRow_apply (v : (⟨1, ![M]⟩ : Shape).Idx → α) (h : (⟨1, ![M]⟩ : Shape).ShapeCasts ⟨2, ![1, M]⟩)
    (p : Fin M) : shapeCast ⟨2, ![1, M]⟩ v h (ix2 (0 : Fin 1) p) = v (ix1 p) :=
  shapeCast_apply v h (ix2 (0 : Fin 1) p) (ix1 p) (by
    rw [Shape.rowMajor_val_one, Shape.rowMajor_val_two]
    show p.val = 0 * M + p.val
    rw [Nat.zero_mul, Nat.zero_add])

end Cert.Lib.RowForms

end
-- ==== Proof.Body.lean ====
/-
  One column tile of the projection, entry by entry.

  At a grid point the kernel body holds the whole fused representation `x` (2048 × 512), one tile `w` of 1280 columns
  of the projection weight (512 × 1280) and the matching tile `b` of the bias as a 1 × 1280 row. It stores the product
  of `x` and `w` into a zero accumulator plus the bias row repeated down the 2048 rows. On the extended reals the
  entry at row `p`, column `q` of the tile is therefore Σ_k x (p, k) · w (k, q) + b (0, q).
-/
import proofs.«101101_j44092134261038_2_alg».proof.Proof.Gen.KernelIdeal.Skeleton
import Idealize.ShloMosaic.Lib.ValueIdx
import Idealize.ShloMosaic.Lib.Pipeline.Value
import proofs.«101101_j44092134261038_2_alg».proof.Proof.LibPlainDot
import proofs.«101101_j44092134261038_2_alg».proof.Proof.LibRowForms

noncomputable section

open scoped BigOperators

namespace Cert.KernelIdeal.Body

open Cert.KernelIdeal Cert.KernelIdeal.Gen Idealize.ShloMosaic Idealize.ShloMosaic.ValueIdx

/-- The body's product is the plain one: left operand contracted on its columns, right on its rows. -/
theorem dot_plain : dot_S2048x512_S512x1280_S2048x1280_1_0_0_1_n_n = DotDims.plain 2048 512 1280 := rfl

/-- The stored tile at row `p`, column `q`. -/
theorem tile_apply (x : Vec Ideal S2048x512 .bf16) (w : Vec Ideal S512x1280 .bf16) (b : Vec Ideal S1x1280 .f32)
    (p : Fin 2048) (q : Fin 1280) :
    k0_pay1 (F := Ideal) x w b (ix2 p q) = (∑ k : Fin 512, x (ix2 p k) * w (ix2 k q)) + b (ix2 (0 : Fin 1) q) := by
  unfold k0_pay1
  simp only [shapeCast_self]
  refine congrArg₂ (· + ·) ?_ ?_
  · rw [dot_plain]
    exact Cert.Lib.PlainDot.matmul_zero_apply none x w p q
  · exact Cert.Lib.RowForms.rowBroadcast_apply b _ p q

end Cert.KernelIdeal.Body

end
-- ==== Proof.LibBiasDot.lean ====
/-
  A matrix product with a bias row added, read at one entry.

  The linear-layer body that many kernels share: an `M × K` by `K × N` product into the zero accumulator, plus a
  bias vector of length `N` viewed as a `1 × N` row and repeated down the `M` rows. At the ideal values its entry at
  row `p`, column `q` is the sum over `k` of the left operand at `(p, k)` times the right operand at `(k, q)`, plus
  the bias at `q`. `lin` names that whole-array function.
-/
import Idealize.ShloMosaic.Lib.ValueIdx
import Idealize.ShloMosaic.Lib.Pipeline.Value
import Idealize.ShloMosaic.PureOps.Ideal.Laws
import proofs.«101101_j44092134261038_2_alg».proof.Proof.LibPlainDot

noncomputable section

open scoped BigOperators

namespace Cert.Lib.BiasDot

open Idealize.ShloMosaic Idealize.ShloMosaic.ValueIdx

variable {M K N : Nat}

/-- The linear layer as one function of its three arrays: entry `(p, q)` is `∑ k, A (p, k) · W (k, q) + b q`. -/
def lin (A : (⟨2, ![M, K]⟩ : Shape).Idx → EReal) (W : (⟨2, ![K, N]⟩ : Shape).Idx → EReal)
    (b : (⟨1, ![N]⟩ : Shape).Idx → EReal) : (⟨2, ![M, N]⟩ : Shape).Idx → EReal :=
  fun i => (∑ k : Fin K, A (ix2 (i 0) k) * W (ix2 k (i 1))) + b (ix1 (i 1))

theorem lin_apply (A : (⟨2, ![M, K]⟩ : Shape).Idx → EReal) (W : (⟨2, ![K, N]⟩ : Shape).Idx → EReal)
    (b : (⟨1, ![N]⟩ : Shape).Idx → EReal) (p : Fin M) (q : Fin N) :
    lin A W b (ix2 p q) = (∑ k : Fin K, A (ix2 p k) * W (ix2 k q)) + b (ix1 q) := rfl

/-- A vector of length `N` viewed as a `1 × N` row and repeated down `M` rows reads, at `(p, q)`, the vector at `q`. -/
theorem rowBroadcast_apply {α : Type} (b : (⟨1, ![N]⟩ : Shape).Idx → α)
    (hc : (⟨1, ![N]⟩ : Shape).ShapeCasts ⟨2, ![1, N]⟩) (hb : (⟨2, ![1, N]⟩ : Shape).Broadcasts ⟨2, ![M, N]⟩)
    (p : Fin M) (q : Fin N) :
    broadcastTo ⟨2, ![M, N]⟩ (shapeCast ⟨2, ![1, N]⟩ b hc) hb (ix2 p q) = b (ix1 q) := by
  refine (broadcastTo_apply _ hb (ix2 p q) (ix2 (0 : Fin 1) q) (fun a => ?_)).trans ?_
  · match a with
    | ⟨0, _⟩ => exact (if_pos rfl).symm
    | ⟨1, _⟩ =>
      show q.val = if N = 1 then 0 else q.val
      split
      · have := q.isLt; omega
      · rfl
  · refine (shapeCast_addUnit_apply ![N] b hc (ix2 (0 : Fin 1) q)).trans (congrArg b ?_)
    funext a
    match a with
    | ⟨0, _⟩ => rfl

/-- The product into zero plus the repeated bias row, at entry `(p, q)`. -/
theorem biasDot_apply {φ₁ φ₂ : FTy} (prec : Option ContractPrecision)
    (l : FVec Ideal ⟨2, ![M, K]⟩ φ₁) (r : FVec Ideal ⟨2, ![K, N]⟩ φ₂) (b : FVec Ideal ⟨1, ![N]⟩ .f32)
    (hc : (⟨1, ![N]⟩ : Shape).ShapeCasts ⟨2, ![1, N]⟩) (hb : (⟨2, ![1, N]⟩ : Shape).Broadcasts ⟨2, ![M, N]⟩)
    (p : Fin M) (q : Fin N) :
    addf (FloatOps.matmul (DotDims.plain M K N) prec l r (constant ⟨2, ![M, N]⟩ .f32 0x00000000#32))
        (broadcastTo ⟨2, ![M, N]⟩ (shapeCast ⟨2, ![1, N]⟩ b hc) hb) (ix2 p q)
      = (∑ k : Fin K, l (ix2 p k) * r (ix2 k q)) + b (ix1 q) := by
  rw [addf_apply, Cert.Lib.PlainDot.matmul_zero_apply, rowBroadcast_apply]

end Cert.Lib.BiasDot

end
-- ==== Proof.LibDense.lean ====
/-
  The dense layers of the network as whole-array functions on the extended reals, and the host's spelling of each.

  A matrix with `M` rows and `N` columns is a function of its two coordinates. The layers are: a product plus a bias
  row (`lin`, from the bias-and-product module), the same with the contraction split over two pairs of operands
  (`lin2`), the plain product (`mm`), adding a row to every row of a matrix (`addRow`), and the positive part
  (`relu`). The host writes a layer as a `dot_general`, the bias broadcast in two steps to the matrix's shape,
  an addition, and a maximum with a broadcast zero; entry by entry these are the functions above.

  Two identities join the kernel's arrangement to the host's. A product whose left operand is two blocks set side by
  side, against a weight matrix, is the sum of the two blocks' products against the matching row ranges of the weight:
  the sum over the contraction index splits at the seam, which needs only that addition of extended reals is
  associative and commutative. And a product plus a row of zeros is the product.
-/
import Idealize.ShloMosaic.Lib.ValueIdx
import Idealize.ShloMosaic.Lib.Pipeline.Value
import Idealize.ShloMosaic.PureOps.Ideal.Laws
import proofs.«101101_j44092134261038_2_alg».proof.Proof.LibBiasDot

noncomputable section

open scoped BigOperators

namespace Cert.Lib.Dense

open Idealize.ShloMosaic Idealize.ShloMosaic.ValueIdx Cert.Lib.BiasDot

variable {M K K' N : Nat}

/-- The positive part, entry by entry. -/
def relu {s : Shape} (f : s.Idx → EReal) : s.Idx → EReal := fun i => max (f i) 0

/-- A row added to every row of a matrix. -/
def addRow (X : (⟨2, ![M, N]⟩ : Shape).Idx → EReal) (B : (⟨1, ![N]⟩ : Shape).Idx → EReal) :
    (⟨2, ![M, N]⟩ : Shape).Idx → EReal := fun i => X i + B (ix1 (i 1))

/-- The plain product: entry `(p, q)` is `∑ k, A (p, k) · W (k, q)`. -/
def mm (A : (⟨2, ![M, K]⟩ : Shape).Idx → EReal) (W : (⟨2, ![K, N]⟩ : Shape).Idx → EReal) :
    (⟨2, ![M, N]⟩ : Shape).Idx → EReal := fun i => ∑ k : Fin K, A (ix2 (i 0) k) * W (ix2 k (i 1))

/-- Two products added, plus a bias row: entry `(p, q)` is `∑ k, A (p, k) · Wa (k, q) + ∑ k, C (p, k) · Wb (k, q) + b q`. -/
def lin2 (A : (⟨2, ![M, K]⟩ : Shape).Idx → EReal) (Wa : (⟨2, ![K, N]⟩ : Shape).Idx → EReal)
    (C : (⟨2, ![M, K']⟩ : Shape).Idx → EReal) (Wb : (⟨2, ![K', N]⟩ : Shape).Idx → EReal)
    (B : (⟨1, ![N]⟩ : Shape).Idx → EReal) : (⟨2, ![M, N]⟩ : Shape).Idx → EReal :=
  fun i => ((∑ k : Fin K, A (ix2 (i 0) k) * Wa (ix2 k (i 1))) + (∑ k : Fin K', C (ix2 (i 0) k) * Wb (ix2 k (i 1))))
    + B (ix1 (i 1))

/-! ## The host's spelling, read at an entry -/

/-- A vector of length `N` broadcast to a `1 × N` row and then down `M` rows reads, at `(p, q)`, the vector at `q`. -/
theorem hostRow_apply {α : Type} (B : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 B) (ix2 p q) = B (ix1 q) := by
  refine (broadcastInDim_apply ![0, 1] h2 _ (ix2 p q) (ix2 (0 : Fin 1) q) (fun a => ?_)).trans ?_
  · match a with
    | ⟨0, _⟩ => exact (if_pos rfl).symm
    | ⟨1, _⟩ =>
      show q.val = if N = 1 then 0 else q.val
      split
      · have := q.isLt; omega
      · rfl
  · refine broadcastInDim_apply ![1] h1 B (ix2 (0 : Fin 1) q) (ix1 q) (fun a => ?_)
    match a with
    | ⟨0, _⟩ =>
      show q.val = if N = 1 then 0 else q.val
      split
      · have := q.isLt; omega
      · rfl

/-- The zero scalar broadcast to any shape is zero everywhere. -/
theorem hostZero_apply {t : Shape} (dims : Fin 0 → Fin t.rank) (h : (⟨0, ![]⟩ : Shape).BroadcastsInDim t dims) (j : t.Idx) :
    broadcastInDim t dims h (constant (F := Ideal) ⟨0, ![]⟩ .f32 0x00000000#32) j = 0 := by
  refine (broadcastInDim_apply (s := ⟨0, ![]⟩) dims h _ j (fun a => a.elim0) (fun a => a.elim0)).trans ?_
  rw [constant_apply, Ideal.ofBits_zero_f32]

/-- The host's linear layer with the positive part: product, bias broadcast in two steps, sum, maximum with zero. -/
theorem host_lin_relu (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (dims : Fin 0 → Fin 2) (h0 : (⟨0, ![]⟩ : Shape).BroadcastsInDim ⟨2, ![M, N]⟩ dims) :
    maximumf (addf (Host.dotGeneral d none X W)
        (broadcastInDim ⟨2, ![M, N]⟩ ![0, 1] h2 (broadcastInDim ⟨2, ![1, N]⟩ ![1] h1 B)))
      (broadcastInDim ⟨2, ![M, N]⟩ dims h0 (constant ⟨0, ![]⟩ .f32 0x00000000#32))
    = relu (lin X W B) := by
  subst hd
  funext i
  obtain ⟨p, q, rfl⟩ : ∃ (p : Fin M) (q : Fin N), i = ix2 p q := ⟨i 0, i 1, eq_ix2 i⟩
  rw [maximumf_apply, addf_apply, hostZero_apply, hostRow_apply]
  exact congrArg (fun z => max (z + B (ix1 q)) 0) (Cert.Lib.PlainDot.dotGeneral_apply none _ X W p q)

/-- The host's bias-and-positive-part layer. -/
theorem host_addRow_relu (X : FVec Ideal ⟨2, ![M, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (dims : Fin 0 → Fin 2) (h0 : (⟨0, ![]⟩ : Shape).BroadcastsInDim ⟨2, ![M, N]⟩ dims) :
    maximumf (addf X (broadcastInDim ⟨2, ![M, N]⟩ ![0, 1] h2 (broadcastInDim ⟨2, ![1, N]⟩ ![1] h1 B)))
      (broadcastInDim ⟨2, ![M, N]⟩ dims h0 (constant ⟨0, ![]⟩ .f32 0x00000000#32))
    = relu (addRow X B) := by
  funext i
  obtain ⟨p, q, rfl⟩ : ∃ (p : Fin M) (q : Fin N), i = ix2 p q := ⟨i 0, i 1, eq_ix2 i⟩
  rw [maximumf_apply, addf_apply, hostZero_apply, hostRow_apply]
  rfl

/-- The host's bias layer. -/
theorem host_addRow (X : FVec Ideal ⟨2, ![M, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf X (broadcastInDim ⟨2, ![M, N]⟩ ![0, 1] h2 (broadcastInDim ⟨2, ![1, N]⟩ ![1] h1 B)) = addRow X B := by
  funext i
  obtain ⟨p, q, rfl⟩ : ∃ (p : Fin M) (q : Fin N), i = ix2 p q := ⟨i 0, i 1, eq_ix2 i⟩
  rw [addf_apply, hostRow_apply]
  rfl

/-- The host's plain product. -/
theorem host_mm (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) :
    Host.dotGeneral d none X W = mm X W := by
  subst hd
  funext i
  obtain ⟨p, q, rfl⟩ : ∃ (p : Fin M) (q : Fin N), i = ix2 p q := ⟨i 0, i 1, eq_ix2 i⟩
  exact Cert.Lib.PlainDot.dotGeneral_apply none _ X W p q

/-! ## A left operand of two blocks side by side -/

section Concat

variable (A : (⟨2, ![M, K]⟩ : Shape).Idx → EReal) (C : (⟨2, ![M, K']⟩ : Shape).Idx → EReal)
  (Wc : (⟨2, ![K + K', N]⟩ : Shape).Idx → EReal)
  (hcat : Shape.Concatenates [(⟨2, ![M, K]⟩ : Shape), ⟨2, ![M, K']⟩] ⟨2, ![M, K + K']⟩ 1)
  (hs1 : (⟨2, ![K + K', N]⟩ : Shape).Slices ![0, 0] ⟨2, ![K, N]⟩)
  (hs2 : (⟨2, ![K + K', N]⟩ : Shape).Slices ![K, 0] ⟨2, ![K', N]⟩)

/-- Left of the seam the two blocks set side by side read the first block. -/
theorem concat_left (p : Fin M) (k : Fin K) :
    concatenate ⟨2, ![M, K + K']⟩ 1 [⟨⟨2, ![M, K]⟩, A⟩, ⟨⟨2, ![M, K']⟩, C⟩] hcat (ix2 p (Fin.castAdd K' k)) = A (ix2 p k) :=
  concatenate_pair_apply_left 1 A C hcat _ rfl (ix2 p k) (fun b => by
    match b with
    | ⟨0, _⟩ => rfl
    | ⟨1, _⟩ => rfl)

/-- Right of the seam they read the second block, the column counted from the seam. -/
theorem concat_right (p : Fin M) (k : Fin K') :
    concatenate ⟨2, ![M, K + K']⟩ 1 [⟨⟨2, ![M, K]⟩, A⟩, ⟨⟨2, ![M, K']⟩, C⟩] hcat (ix2 p (Fin.natAdd K k)) = C (ix2 p k) :=
  concatenate_pair_apply_right 1 A C hcat _ rfl rfl (ix2 p k) (fun b hb => by
    match b, hb with
    | ⟨0, _⟩, _ => rfl
    | ⟨1, _⟩, h => exact absurd rfl h) (by show k.val + K = K + k.val; omega)

/-- The first `K` rows of the weight. -/
theorem slice_top (k : Fin K) (q : Fin N) :
    extractStridedSlice ⟨2, ![K, N]⟩ ![0, 0] Wc hs1 (ix2 k q) = Wc (ix2 (Fin.castAdd K' k) q) :=
  extractStridedSlice_apply ![0, 0] Wc hs1 (ix2 k q) (ix2 (Fin.castAdd K' k) q) (fun a => by
    match a with
    | ⟨0, _⟩ => show k.val = 0 + k.val; omega
    | ⟨1, _⟩ => show q.val = 0 + q.val; omega)

/-- The last `K'` rows of the weight. -/
theorem slice_bot (k : Fin K') (q : Fin N) :
    extractStridedSlice ⟨2, ![K', N]⟩ ![K, 0] Wc hs2 (ix2 k q) = Wc (ix2 (Fin.natAdd K k) q) :=
  extractStridedSlice_apply ![K, 0] Wc hs2 (ix2 k q) (ix2 (Fin.natAdd K k) q) (fun a => by
    match a with
    | ⟨0, _⟩ => show K + k.val = K + k.val; rfl
    | ⟨1, _⟩ => show q.val = 0 + q.val; omega)

/-- The sum over the contraction index of the side-by-side operand against the weight splits at the seam into the two
    blocks' sums against the two row ranges of the weight. -/
theorem sum_concat (p : Fin M) (q : Fin N) :
    (∑ k : Fin (K + K'), concatenate ⟨2, ![M, K + K']⟩ 1 [⟨⟨2, ![M, K]⟩, A⟩, ⟨⟨2, ![M, K']⟩, C⟩] hcat (ix2 p k) * Wc (ix2 k q))
      = (∑ k : Fin K, A (ix2 p k) * extractStridedSlice ⟨2, ![K, N]⟩ ![0, 0] Wc hs1 (ix2 k q))
        + (∑ k : Fin K', C (ix2 p k) * extractStridedSlice ⟨2, ![K', N]⟩ ![K, 0] Wc hs2 (ix2 k q)) := by
  rw [Fin.sum_univ_add]
  refine congrArg₂ (· + ·) (Finset.sum_congr rfl fun k _ => ?_) (Finset.sum_congr rfl fun k _ => ?_)
  · rw [concat_left, slice_top]
  · rw [concat_right, slice_bot]

end Concat

/-- The host's second layer: the side-by-side operand against the whole weight, bias, positive part — is the two-product
    layer of the two blocks against the two row ranges of the weight. -/
theorem host_concat_lin2_relu {Kt : Nat} (hK : Kt = K + K')
    (d : DotDims ⟨2, ![M, Kt]⟩ ⟨2, ![Kt, N]⟩ ⟨2, ![M, N]⟩) (hd : d = hK ▸ DotDims.plain M (K + K') N)
    (A : FVec Ideal ⟨2, ![M, K]⟩ .f32) (C : FVec Ideal ⟨2, ![M, K']⟩ .f32) (Wc : FVec Ideal ⟨2, ![Kt, N]⟩ .f32)
    (B : FVec Ideal ⟨1, ![N]⟩ .f32)
    (hcat : Shape.Concatenates [(⟨2, ![M, K]⟩ : Shape), ⟨2, ![M, K']⟩] ⟨2, ![M, Kt]⟩ 1)
    (hs1 : (⟨2, ![Kt, N]⟩ : Shape).Slices ![0, 0] ⟨2, ![K, N]⟩)
    (hs2 : (⟨2, ![Kt, N]⟩ : Shape).Slices ![K, 0] ⟨2, ![K', N]⟩)
    (h1 : (⟨1, ![N]⟩ : Shape).BroadcastsInDim ⟨2, ![1, N]⟩ ![1])
    (h2 : (⟨2, ![1, N]⟩ : Shape).BroadcastsInDim ⟨2, ![M, N]⟩ ![0, 1])
    (dims : Fin 0 → Fin 2) (h0 : (⟨0, ![]⟩ : Shape).BroadcastsInDim ⟨2, ![M, N]⟩ dims) :
    maximumf (addf (Host.dotGeneral d none
          (concatenate ⟨2, ![M, Kt]⟩ 1 [⟨⟨2, ![M, K]⟩, A⟩, ⟨⟨2, ![M, K']⟩, C⟩] hcat) Wc)
        (broadcastInDim ⟨2, ![M, N]⟩ ![0, 1] h2 (broadcastInDim ⟨2, ![1, N]⟩ ![1] h1 B)))
      (broadcastInDim ⟨2, ![M, N]⟩ dims h0 (constant ⟨0, ![]⟩ .f32 0x00000000#32))
    = relu (lin2 A (extractStridedSlice ⟨2, ![K, N]⟩ ![0, 0] Wc hs1) C (extractStridedSlice ⟨2, ![K', N]⟩ ![K, 0] Wc hs2) B) := by
  subst hK
  subst hd
  funext i
  obtain ⟨p, q, rfl⟩ : ∃ (p : Fin M) (q : Fin N), i = ix2 p q := ⟨i 0, i 1, eq_ix2 i⟩
  rw [maximumf_apply, addf_apply, hostZero_apply, hostRow_apply]
  refine congrArg (fun z => max (z + B (ix1 q)) 0) ?_
  exact (Cert.Lib.PlainDot.dotGeneral_apply none _ _ Wc p q).trans (sum_concat A C Wc hcat hs1 hs2 p q)

/-! ## A zero bias row -/

/-- A product plus a row of zeros is the product. -/
theorem lin_zero (X : (⟨2, ![M, K]⟩ : Shape).Idx → EReal) (W : (⟨2, ![K, N]⟩ : Shape).Idx → EReal)
    (Z : (⟨1, ![N]⟩ : Shape).Idx → EReal) (hZ : ∀ j, Z j = 0) : lin X W Z = mm X W := by
  funext i
  show (∑ k : Fin K, X (ix2 (i 0) k) * W (ix2 k (i 1))) + Z (ix1 (i 1)) = _
  rw [hZ, add_zero]
  rfl

end Cert.Lib.Dense

end
-- ==== Proof.LibCatDot.lean ====
/-
  The host's linear layers without a positive part, as whole-array functions on the extended reals.

  A product plus a bias row broadcast in two steps is the linear layer `lin`; two products added, plus such a row,
  the two-product layer `lin2`. A product whose left operand is two blocks set side by side, plus such a bias row, is
  the two-product layer of the blocks against the top and the bottom row ranges of the weight (`rowsTop`,
  `rowsBot`): the sum over the contraction index splits at the seam, which uses only that addition of extended reals
  is associative and commutative, so it holds at infinite entries too. The two row ranges are also what the two
  unit-stride slices of the weight at row offsets `0` and `K` read.
-/
import Idealize.ShloMosaic.Lib.ValueIdx
import Idealize.ShloMosaic.Lib.Pipeline.Value
import Idealize.ShloMosaic.PureOps.Ideal.Laws
import proofs.«101101_j44092134261038_2_alg».proof.Proof.LibDense

noncomputable section

open scoped BigOperators

namespace Cert.Lib.CatDot

open Idealize.ShloMosaic Idealize.ShloMosaic.ValueIdx Cert.Lib.BiasDot Cert.Lib.Dense

variable {M K K' N : Nat}

/-- The first `K` rows of a matrix of `K + K'` rows. -/
def rowsTop (Wc : (⟨2, ![K + K', N]⟩ : Shape).Idx → EReal) : (⟨2, ![K, N]⟩ : Shape).Idx → EReal :=
  fun i => Wc (ix2 (Fin.castAdd K' (i 0)) (i 1))

/-- Its last `K'` rows. -/
def rowsBot (Wc : (⟨2, ![K + K', N]⟩ : Shape).Idx → EReal) : (⟨2, ![K', N]⟩ : Shape).Idx → EReal :=
  fun i => Wc (ix2 (Fin.natAdd K (i 0)) (i 1))

/-- The slice at row offset `0` is the first `K` rows. -/
theorem slice_rowsTop (Wc : (⟨2, ![K + K', N]⟩ : Shape).Idx → EReal)
    (hs1 : (⟨2, ![K + K', N]⟩ : Shape).Slices ![0, 0] ⟨2, ![K, N]⟩) :
    extractStridedSlice ⟨2, ![K, N]⟩ ![0, 0] Wc hs1 = rowsTop Wc := by
  funext i
  obtain ⟨k, q, rfl⟩ : ∃ (k : Fin K) (q : Fin N), i = ix2 k q := ⟨i 0, i 1, eq_ix2 i⟩
  exact slice_top Wc hs1 k q

/-- The slice at row offset `K` is the last `K'` rows. -/
theorem slice_rowsBot (Wc : (⟨2, ![K + K', N]⟩ : Shape).Idx → EReal)
    (hs2 : (⟨2, ![K + K', N]⟩ : Shape).Slices ![K, 0] ⟨2, ![K', N]⟩) :
    extractStridedSlice ⟨2, ![K', N]⟩ ![K, 0] Wc hs2 = rowsBot Wc := by
  funext i
  obtain ⟨k, q, rfl⟩ : ∃ (k : Fin K') (q : Fin N), i = ix2 k q := ⟨i 0, i 1, eq_ix2 i⟩
  exact slice_bot Wc hs2 k q

/-- The sum over the contraction index of the side-by-side operand against the weight splits at the seam into the two
    blocks' sums against the first and the last rows of the weight. -/
theorem sum_concat_rows (A : (⟨2, ![M, K]⟩ : Shape).Idx → EReal) (C : (⟨2, ![M, K']⟩ : Shape).Idx → EReal)
    (Wc : (⟨2, ![K + K', N]⟩ : Shape).Idx → EReal)
    (hcat : Shape.Concatenates [(⟨2, ![M, K]⟩ : Shape), ⟨2, ![M, K']⟩] ⟨2, ![M, K + K']⟩ 1) (p : Fin M) (q : Fin N) :
    (∑ k : Fin (K + K'), concatenate ⟨2, ![M, K + K']⟩ 1 [⟨⟨2, ![M, K]⟩, A⟩, ⟨⟨2, ![M, K']⟩, C⟩] hcat (ix2 p k) * Wc (ix2 k q))
      = (∑ k : Fin K, A (ix2 p k) * rowsTop Wc (ix2 k q)) + (∑ k : Fin K', C (ix2 p k) * rowsBot Wc (ix2 k q)) := by
  rw [Fin.sum_univ_add]
  refine congrArg₂ (· + ·) (Finset.sum_congr rfl fun k _ => ?_) (Finset.sum_congr rfl fun k _ => ?_)
  · rw [concat_left]; rfl
  · rw [concat_right]; rfl

/-- The host's linear layer: product, bias broadcast in two steps, sum. -/
theorem host_lin (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral d none X W)
        (broadcastInDim ⟨2, ![M, N]⟩ ![0, 1] h2 (broadcastInDim ⟨2, ![1, N]⟩ ![1] h1 B))
      = lin X W B := by
  subst hd
  funext i
  obtain ⟨p, q, rfl⟩ : ∃ (p : Fin M) (q : Fin N), i = ix2 p q := ⟨i 0, i 1, eq_ix2 i⟩
  rw [addf_apply, hostRow_apply]
  exact congrArg (fun z => z + B (ix1 q)) (Cert.Lib.PlainDot.dotGeneral_apply none _ X W p q)

/-- Two host products added, then a bias row broadcast in two steps added: the two-product layer. -/
theorem host_lin2 (d : DotDims ⟨2, ![M, K]⟩ ⟨2, ![K, N]⟩ ⟨2, ![M, N]⟩) (hd : d = DotDims.plain M K N)
    (d' : DotDims ⟨2, ![M, K']⟩ ⟨2, ![K', N]⟩ ⟨2, ![M, N]⟩) (hd' : d' = DotDims.plain M K' N)
    (A : FVec Ideal ⟨2, ![M, K]⟩ .f32) (Wa : FVec Ideal ⟨2, ![K, N]⟩ .f32)
    (C : FVec Ideal ⟨2, ![M, K']⟩ .f32) (Wb : FVec Ideal ⟨2, ![K', N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf (addf (Host.dotGeneral d none A Wa) (Host.dotGeneral d' none C Wb))
        (broadcastInDim ⟨2, ![M, N]⟩ ![0, 1] h2 (broadcastInDim ⟨2, ![1, N]⟩ ![1] h1 B))
      = lin2 A Wa C Wb B := by
  subst hd
  subst hd'
  funext i
  obtain ⟨p, q, rfl⟩ : ∃ (p : Fin M) (q : Fin N), i = ix2 p q := ⟨i 0, i 1, eq_ix2 i⟩
  rw [addf_apply, addf_apply, hostRow_apply]
  exact congrArg₂ (fun y z => y + z + B (ix1 q)) (Cert.Lib.PlainDot.dotGeneral_apply none _ A Wa p q)
    (Cert.Lib.PlainDot.dotGeneral_apply none _ C Wb p q)

/-- The host's layer over a side-by-side operand: the concatenation against the whole weight, plus the bias row, is the
    two-product layer of the two blocks against the first and the last rows of the weight. -/
theorem host_concat_lin2 (d : DotDims ⟨2, ![M, K + K']⟩ ⟨2, ![K + K', N]⟩ ⟨2, ![M, N]⟩) (hd : d = DotDims.plain M (K + K') N)
    (A : FVec Ideal ⟨2, ![M, K]⟩ .f32) (C : FVec Ideal ⟨2, ![M, K']⟩ .f32) (Wc : FVec Ideal ⟨2, ![K + K', N]⟩ .f32)
    (B : FVec Ideal ⟨1, ![N]⟩ .f32)
    (hcat : Shape.Concatenates [(⟨2, ![M, K]⟩ : Shape), ⟨2, ![M, K']⟩] ⟨2, ![M, K + K']⟩ 1)
    (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral d none
          (concatenate ⟨2, ![M, K + K']⟩ 1 [⟨⟨2, ![M, K]⟩, A⟩, ⟨⟨2, ![M, K']⟩, C⟩] hcat) Wc)
        (broadcastInDim ⟨2, ![M, N]⟩ ![0, 1] h2 (broadcastInDim ⟨2, ![1, N]⟩ ![1] h1 B))
    = lin2 A (rowsTop Wc) C (rowsBot Wc) B := by
  subst hd
  funext i
  obtain ⟨p, q, rfl⟩ : ∃ (p : Fin M) (q : Fin N), i = ix2 p q := ⟨i 0, i 1, eq_ix2 i⟩
  rw [addf_apply, hostRow_apply]
  refine congrArg (fun z => z + B (ix1 q)) ?_
  exact (Cert.Lib.PlainDot.dotGeneral_apply none _ _ Wc p q).trans (sum_concat_rows A C Wc hcat p q)

end Cert.Lib.CatDot

end
-- ==== Proof.Spec.lean ====
/-
  The network's logits as one function of its arrays, entry by entry, on the extended reals.

  With `U` the user representation (2048 × 512), `R` the mean-pooled retrieved embeddings (2048 × 512), `W` the fuse
  weight (1024 × 512: its first 512 rows multiply `U`, its last 512 rows multiply `R`), `bf` the fuse bias, `Wp` the
  projection weight (512 × 100000) and `bp` the projection bias:

    fused (b, h)  = Σ_k U (b, k) · W (k, h) + Σ_k R (b, k) · W (512 + k, h) + bf h
    logits (b, v) = Σ_h fused (b, h) · Wp (h, v) + bp v

  The pooled array `R` stays a parameter: both programs compute it by the same gather, sum over the fifty retrieved
  rows and division by fifty, so nothing about it is needed beyond its being the same array on both sides.
-/
import Idealize.ShloMosaic.Lib.ValueIdx
import proofs.«101101_j44092134261038_2_alg».proof.Proof.LibCatDot

noncomputable section

namespace Cert.Logits

open Idealize.ShloMosaic Idealize.ShloMosaic.ValueIdx Cert.Lib.BiasDot Cert.Lib.Dense Cert.Lib.CatDot

/-- A matrix of extended reals. -/
abbrev Mat (a b : Nat) : Type := (⟨2, ![a, b]⟩ : Shape).Idx → EReal
/-- A vector of extended reals. -/
abbrev Row (a : Nat) : Type := (⟨1, ![a]⟩ : Shape).Idx → EReal

/-- The fused representation: the user rows against the first half of the fuse weight's rows, the pooled rows against
    the second half, and the fuse bias. -/
def fused (U R : Mat 2048 512) (W : Mat (512 + 512) 512) (bf : Row 512) : Mat 2048 512 :=
  lin2 U (rowsTop W) R (rowsBot W) bf

/-- The logits: the fused representation against the projection weight, plus the projection bias. -/
def logits (U R : Mat 2048 512) (W : Mat (512 + 512) 512) (bf : Row 512) (Wp : Mat 512 100000) (bp : Row 100000) :
    Mat 2048 100000 :=
  lin (fused U R W bf) Wp bp

theorem logits_apply (U R : Mat 2048 512) (W : Mat (512 + 512) 512) (bf : Row 512) (Wp : Mat 512 100000)
    (bp : Row 100000) (p : Fin 2048) (q : Fin 100000) :
    logits U R W bf Wp bp (ix2 p q) = (∑ h : Fin 512, fused U R W bf (ix2 p h) * Wp (ix2 h q)) + bp (ix1 q) := rfl

end Cert.Logits

end
-- ==== Proof.LibPadTail.lean ====
/-
  A padding that only lengthens the last axis at its far end, read at an entry of the original array.

  Zero-padding a weight matrix's columns, or a bias vector, up to a whole number of column tiles adds entries
  past the original extent and moves none: on every axis the low padding is zero and there is no interior
  padding, so the padded array at an index whose last coordinate is below the original extent is the original
  array at the same coordinates. Stated for a matrix padded along its columns and for a vector.
-/
import Idealize.ShloMosaic.Lib.ValueIdx
import Idealize.ShloMosaic.Lib.KernelVsHost

noncomputable section

namespace Cert.Lib.PadTail

open Idealize.ShloMosaic Idealize.ShloMosaic.ValueIdx

variable {α : Type}

/-- A matrix with `B` columns padded to `T` columns: entry `(p, q)` with `q` below `B` is the matrix's entry `(p, q)`. -/
theorem pad_cols_apply {A B T hi : Nat} (x : (⟨2, ![A, B]⟩ : Shape).Idx → α) {u : Shape} (v : u.Idx → α)
    (hp : (⟨2, ![A, B]⟩ : Shape).Pads ![0, 0] ![0, hi] ![0, 0] ⟨2, ![A, T]⟩) (hu : 0 < u.numel)
    (p : Fin A) (q : Fin T) (q' : Fin B) (hq : q'.val = q.val) :
    pad ⟨2, ![A, T]⟩ ![0, 0] ![0, hi] ![0, 0] x v hp hu (ix2 p q) = x (ix2 p q') :=
  pad_apply_of_inside _ _ _ x v hp hu (ix2 p q) (ix2 p q') fun a => by
    match a with
    | ⟨0, _⟩ => show p.val = 0 + p.val * (0 + 1); omega
    | ⟨1, _⟩ => show q.val = 0 + q'.val * (0 + 1); omega

/-- A vector of length `B` padded to length `T`: entry `q` below `B` is the vector's entry `q`. -/
theorem pad_vec_apply {B T hi : Nat} (x : (⟨1, ![B]⟩ : Shape).Idx → α) {u : Shape} (v : u.Idx → α)
    (hp : (⟨1, ![B]⟩ : Shape).Pads ![0] ![hi] ![0] ⟨1, ![T]⟩) (hu : 0 < u.numel)
    (q : Fin T) (q' : Fin B) (hq : q'.val = q.val) :
    pad ⟨1, ![T]⟩ ![0] ![hi] ![0] x v hp hu (ix1 q) = x (ix1 q') :=
  pad_apply_of_inside _ _ _ x v hp hu (ix1 q) (ix1 q') fun a => by
    match a with
    | ⟨0, _⟩ => show q.val = 0 + q'.val * (0 + 1); omega

end Cert.Lib.PadTail

end
-- ==== Proof.HostSide.lean ====
/-
  What the projection kernel is launched on.

  Before the kernel's one region the host computes three arrays. The fused representation: the user rows against the
  first 512 rows of the fuse weight plus the mean-pooled retrieved rows against its last 512 rows plus the fuse bias,
  then narrowed to the 16-bit format — the identity on extended reals. The projection weight with 1120 columns of
  zeros appended (100000 columns become 101120, seventy-nine tiles of 1280), narrowed likewise. The projection bias
  with 1120 zeros appended, viewed as a 1 × 101120 row. At every column below 100000 the padded arrays are the
  arguments themselves; the appended columns are never part of the result.
-/
import proofs.«101101_j44092134261038_2_alg».proof.Proof.Gen.KernelIdeal.Frame
import Idealize.ShloMosaic.Lib.StableHlo.Run
import proofs.«101101_j44092134261038_2_alg».proof.Proof.Spec
import proofs.«101101_j44092134261038_2_alg».proof.Proof.LibPadTail
import proofs.«101101_j44092134261038_2_alg».proof.Proof.LibRowForms

noncomputable section

namespace Cert.KernelIdeal.HostSide

open Cert.KernelIdeal Cert.KernelIdeal.Gen Idealize.ShloMosaic Idealize.ShloMosaic.TcCoe Idealize.SL.Sem
open Idealize.ShloMosaic.StableHlo Idealize.ShloMosaic.ValueIdx
open Cert.Lib.CatDot Cert.Logits

variable (m : (ℓ : Loc nD τ sig) → Buf (Elt Ideal) ℓ)

/-- The mean-pooled retrieved rows as the host spells them: negative row numbers wrapped by the table's height, the
    rows gathered, the fifty rows of each batch entry summed from zero, the sums divided by fifty. -/
def pooled (idx : (⟨S2048x50, .i32⟩ : BufTy).Contents (Elt Ideal)) (E : FVec Ideal S100000x512 .f32) :
    FVec Ideal S2048x512 .f32 :=
  Host.divf (Host.reduceAdd (Host.gather gather_S100000x512_S2048x50x1_S2048x50x512_2_0_n_n_0_2_1512 E
      (broadcastInDim S2048x50x1 ![0, 1] bcast_S2048x50_S2048x50x1_0_1
        (select (cmpi .slt idx (broadcastInDim S2048x50 ![] bcast_S_S2048x50 (constantI S_ 32 0#32)))
          (addi idx (broadcastInDim S2048x50 ![] bcast_S_S2048x50 (constantI S_ 32 100000#32))) idx)))
      (constant S_ .f32 0x00000000#32) reducesTo_S2048x50x512_S2048x512_d1 h_S_)
    (broadcastInDim S2048x512 ![] bcast_S_S2048x512 (constant S_ .f32 0x42480000#32))

/-- The argument arrays as launched, each at its type: the user rows, the retrieved row numbers, the embedding table, the
    fuse weight and bias, the projection weight and bias. -/
abbrev aU (c : Dev nD) : FVec Ideal S2048x512 .f32 := m ((c : Thread nD τ).loc main_arg0)
abbrev aIdx (c : Dev nD) : (⟨S2048x50, .i32⟩ : BufTy).Contents (Elt Ideal) := m ((c : Thread nD τ).loc main_arg1)
abbrev aE (c : Dev nD) : FVec Ideal S100000x512 .f32 := m ((c : Thread nD τ).loc main_arg2)
abbrev aW (c : Dev nD) : FVec Ideal S1024x512 .f32 := m ((c : Thread nD τ).loc main_arg3)
abbrev aBf (c : Dev nD) : FVec Ideal S512 .f32 := m ((c : Thread nD τ).loc main_arg4)
abbrev aWp (c : Dev nD) : FVec Ideal S512x100000 .f32 := m ((c : Thread nD τ).loc main_arg5)
abbrev aBp (c : Dev nD) : FVec Ideal S100000 .f32 := m ((c : Thread nD τ).loc main_arg6)

set_option maxHeartbeats 2000000 in
/-- The first window's array at region entry, as the host operations' term of the arguments. -/
theorem fusedArr_eq (c : Dev nD) :
    (V m c main_v18 : FVec Ideal S2048x512 .bf16)
      = truncf .bf16 (addf (addf
          (Host.dotGeneral dot_S2048x512_S512x512_S2048x512_1_0_0_1_n_n none (aU m c)
            (extractStridedSlice S512x512 ![0, 0] (aW m c) slices_S1024x512_S512x512_0_0))
          (Host.dotGeneral dot_S2048x512_S512x512_S2048x512_1_0_0_1_n_n none
            (pooled (aIdx m c) (aE m c))
            (extractStridedSlice S512x512 ![512, 0] (aW m c) slices_S1024x512_S512x512_512_0)))
          (broadcastInDim S2048x512 ![0, 1] bcast_S1x512_S2048x512_0_1
            (broadcastInDim S1x512 ![1] bcast_S512_S1x512_1 (aBf m c)))) bitsLt_bf16_f32 := by
  dsimp only [Gen.V]
  simp only [Gen.hostOps0, Gen.hostOps0_1, Gen.hostOps0_2, Gen.hostOps0_3, Gen.hostOps0_4, List.flatten_cons,
    List.flatten_nil, List.append_nil, List.cons_append, List.nil_append]
  after_results_simp
  rfl

/-- Each half of the fuse product is a plain product of a 2048 × 512 array with a 512 × 512 one. -/
theorem dot_half_plain : dot_S2048x512_S512x512_S2048x512_1_0_0_1_n_n = DotDims.plain 2048 512 512 := rfl

/-- The first window's array is the fused representation of the arguments. -/
theorem fusedArr_apply (c : Dev nD) (p : Fin 2048) (k : Fin 512) :
    (V m c main_v18 : FVec Ideal S2048x512 .bf16) (ix2 p k)
      = fused (aU m c) (pooled (aIdx m c) (aE m c)) (aW m c) (aBf m c) (ix2 p k) := by
  have e1 : extractStridedSlice S512x512 ![0, 0] (aW m c) slices_S1024x512_S512x512_0_0
      = rowsTop (K := 512) (K' := 512) (aW m c) :=
    slice_rowsTop (K := 512) (K' := 512) (N := 512) (aW m c) slices_S1024x512_S512x512_0_0
  have e2 : extractStridedSlice S512x512 ![512, 0] (aW m c) slices_S1024x512_S512x512_512_0
      = rowsBot (K := 512) (K' := 512) (aW m c) :=
    slice_rowsBot (K := 512) (K' := 512) (N := 512) (aW m c) slices_S1024x512_S512x512_512_0
  rw [fusedArr_eq, truncf_apply, e1, e2]
  exact congrFun (host_lin2 (M := 2048) (K := 512) (K' := 512) (N := 512) _ dot_half_plain _ dot_half_plain (aU m c)
    (rowsTop (K := 512) (K' := 512) (aW m c)) (pooled (aIdx m c) (aE m c)) (rowsBot (K := 512) (K' := 512) (aW m c))
    (aBf m c) bcast_S512_S1x512_1 bcast_S1x512_S2048x512_0_1) (ix2 p k)

set_option maxHeartbeats 2000000 in
/-- The second window's array at region entry: the projection weight with columns of the converted integer zero appended,
    narrowed. -/
theorem weightArr_eq (c : Dev nD) :
    (V m c main_v20 : FVec Ideal S512x101120 .bf16)
      = truncf .bf16 (pad S512x101120 ![0, 0] ![0, 1120] ![0, 0] (aWp m c)
          (sitofp (F := Ideal) .f32 (constantI S_ 32 0#32)) pads_S512x100000_S512x101120_000_011200 h_S_) bitsLt_bf16_f32 := by
  dsimp only [Gen.V]
  simp only [Gen.hostOps0, Gen.hostOps0_1, Gen.hostOps0_2, Gen.hostOps0_3, Gen.hostOps0_4, List.flatten_cons,
    List.flatten_nil, List.append_nil, List.cons_append, List.nil_append]
  after_results_simp
  rfl

/-- Below column 100000 the padded weight is the projection weight. -/
theorem weightArr_apply (c : Dev nD) (k : Fin 512) (j : Fin 101120) (v : Fin 100000) (h : v.val = j.val) :
    (V m c main_v20 : FVec Ideal S512x101120 .bf16) (ix2 k j) = aWp m c (ix2 k v) := by
  rw [weightArr_eq, truncf_apply]
  exact Cert.Lib.PadTail.pad_cols_apply (aWp m c) _ pads_S512x100000_S512x101120_000_011200 h_S_ k j v h

set_option maxHeartbeats 2000000 in
/-- The third window's array at region entry: the projection bias with converted integer zeros appended, viewed as a row. -/
theorem biasRow_eq (c : Dev nD) :
    (V m c main_v22 : FVec Ideal S1x101120 .f32)
      = shapeCast S1x101120 (pad S101120 ![0] ![1120] ![0] (aBp m c)
          (sitofp (F := Ideal) .f32 (constantI S_ 32 0#32)) pads_S100000_S101120_011200 h_S_) shapeCasts_S101120_S1x101120 := by
  dsimp only [Gen.V]
  simp only [Gen.hostOps0, Gen.hostOps0_1, Gen.hostOps0_2, Gen.hostOps0_3, Gen.hostOps0_4, List.flatten_cons,
    List.flatten_nil, List.append_nil, List.cons_append, List.nil_append]
  after_results_simp
  rfl

/-- Below column 100000 the padded bias row is the projection bias. -/
theorem biasRow_apply (c : Dev nD) (j : Fin 101120) (v : Fin 100000) (h : v.val = j.val) :
    (V m c main_v22 : FVec Ideal S1x101120 .f32) (ix2 (0 : Fin 1) j) = aBp m c (ix1 v) := by
  rw [biasRow_eq]
  exact (Cert.Lib.RowForms.vecRow_apply _ shapeCasts_S101120_S1x101120 j).trans
    (Cert.Lib.PadTail.pad_vec_apply (aBp m c) _ pads_S100000_S101120_011200 h_S_ j v h)

end Cert.KernelIdeal.HostSide

end
-- ==== Proof.Blocks.lean ====
/-
  From the column tiles to the whole array of logits.

  The grid has seventy-nine points. Point `t` reads the whole fused representation, columns 1280·t … 1280·t + 1279 of
  the padded projection weight and of the padded bias row, and writes back columns 1280·t … of the 2048 × 100000
  result — all 1280 of them at the first seventy-eight points, the first 160 at the last, whose tile overhangs the
  array's end at column 100000. Every column written is below 100000, where the padded weight and bias are the
  arguments themselves, so what point `t` writes back is its block of the logits; column `v` lies in the block of
  point `v / 1280`, so the blocks cover the array and the array ends holding the logits.
-/
import proofs.«101101_j44092134261038_2_alg».proof.Proof.Gen.KernelIdeal.Value
import proofs.«101101_j44092134261038_2_alg».proof.Proof.Body
import proofs.«101101_j44092134261038_2_alg».proof.Proof.HostSide

set_option maxRecDepth 16384

noncomputable section

open scoped BigOperators

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx Cert.KernelIdeal.HostSide Cert.Logits

variable (m : (ℓ : Loc nD τ sig) → Buf (Elt Ideal) ℓ) (ρ : Dev nD → PrngReg)

theorem hz : (![0, 0] : Fin 2 → Nat) = fun _ => 0 := funext fun a => by fin_cases a <;> rfl

/-- The logits of the arguments as launched. -/
def result (c : Dev nD) : S2048x100000.Idx → EReal :=
  logits (aU m c) (pooled (aIdx m c) (aE m c)) (aW m c) (aBf m c) (aWp m c) (aBp m c)

/-- The index maps over the seventy-nine points: the fused representation is always block (0, 0); the weight tile, the
    bias tile and the result tile at point `t` are block `t` along the columns. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

/-- What the result tile's write-back moves: all 2048 rows, and 1280 columns or, at the array's end, as many as are left. -/
theorem cut_facts : ∀ t : Fin cfg0.N,
    win0_3.xsize (grid0.coords t) (0 : Fin 2) = 2048
    ∧ t.val * 1280 + win0_3.xsize (grid0.coords t) (1 : Fin 2) ≤ 100000
    ∧ (win0_3.xsize (grid0.coords t) (1 : Fin 2) = 1280 ∨ t.val * 1280 + win0_3.xsize (grid0.coords t) (1 : Fin 2) = 100000) :=
  (by decide +kernel : ∀ t : Fin grid0.N, _)

/-- The fused representation's block at any point is the whole array. -/
theorem blk0_apply (c : Dev nD) (t : Fin cfg0.N) (p : Fin 2048) (k : Fin 512) :
    iblk m c 0 t (ix2 p k) = (V m c main_v18 : FVec Ideal S2048x512 .bf16) (ix2 p k) := by
  obtain ⟨e00, e01, -⟩ := idx_facts t
  show (V m c main_v18 : FVec Ideal S2048x512 .bf16) (((cfg0.win 0).blk t).view.emb (ix2 p k)) = _
  refine congrArg _ (funext fun a => Fin.ext ?_)
  match a with
  | ⟨0, _⟩ => show win0_0.index t (0 : Fin 2) * 2048 + 1 * p.val = p.val; omega
  | ⟨1, _⟩ => show win0_0.index t (1 : Fin 2) * 512 + 1 * k.val = k.val; omega

/-- The weight tile at point `t` is columns 1280·t … of the padded weight. -/
theorem blk1_apply (c : Dev nD) (t : Fin cfg0.N) (k : Fin 512) (q : Fin 1280) (j : Fin 101120)
    (hj : j.val = t.val * 1280 + q.val) :
    iblk m c 1 t (ix2 k q) = (V m c main_v20 : FVec Ideal S512x101120 .bf16) (ix2 k j) := by
  obtain ⟨-, -, e10, e11, -⟩ := idx_facts t
  show (V m c main_v20 : FVec Ideal S512x101120 .bf16) (((cfg0.win 1).blk t).view.emb (ix2 k q)) = _
  refine congrArg _ (funext fun a => Fin.ext ?_)
  match a with
  | ⟨0, _⟩ => show win0_1.index t (0 : Fin 2) * 512 + 1 * k.val = k.val; omega
  | ⟨1, _⟩ => show win0_1.index t (1 : Fin 2) * 1280 + 1 * q.val = j.val; omega

/-- The bias tile at point `t` is columns 1280·t … of the padded bias row. -/
theorem blk2_apply (c : Dev nD) (t : Fin cfg0.N) (q : Fin 1280) (j : Fin 101120)
    (hj : j.val = t.val * 1280 + q.val) :
    iblk m c 2 t (ix2 (0 : Fin 1) q) = (V m c main_v22 : FVec Ideal S1x101120 .f32) (ix2 (0 : Fin 1) j) := by
  obtain ⟨-, -, -, -, e20, e21, -⟩ := idx_facts t
  show (V m c main_v22 : FVec Ideal S1x101120 .f32) (((cfg0.win 2).blk t).view.emb (ix2 (0 : Fin 1) q)) = _
  refine congrArg _ (funext fun a => Fin.ext ?_)
  match a with
  | ⟨0, _⟩ => show win0_2.index t (0 : Fin 2) * 1 + 1 * 0 = 0; omega
  | ⟨1, _⟩ => show win0_2.index t (1 : Fin 2) * 1280 + 1 * q.val = j.val; omega

/-- What point `t` writes back is its block of the logits. -/
theorem flushed_eq (c : Dev nD) (t : Fin cfg0.N) :
    (dats m 0 c).flushed 3 t = ((cfg0.win 3).blk t).view.read (Elt Ideal) (result m c) := by
  rw [Value.flushed3]
  unfold out0_3
  rw [View.canon_unit_zero hz]
  simp only [View.ld_unit_zero (S := S2048x512) hz, View.ld_unit_zero (S := S512x1280) hz,
    View.ld_unit_zero (S := S1x1280) hz]
  obtain ⟨-, -, -, -, -, -, e30, e31⟩ := idx_facts t
  obtain ⟨x0, x1, -⟩ := cut_facts t
  funext y
  -- the array index the block's entry `y` sits at: row `y 0`, column `1280·t + y 1`
  have hy0 : (y 0).val < 2048 := lt_of_lt_of_eq (y 0).isLt x0
  have hy1 : (y 1).val < win0_3.xsize (grid0.coords t) (1 : Fin 2) := (y 1).isLt
  have hq : (y 1).val < 1280 := lt_of_lt_of_le hy1 (win0_3.xsize_le (grid0.coords t) 1)
  have hv : t.val * 1280 + (y 1).val < 100000 := by omega
  have ht : t.val < 79 := t.isLt
  let p : Fin 2048 := ⟨(y 0).val, hy0⟩
  let q : Fin 1280 := ⟨(y 1).val, hq⟩
  let v : Fin 100000 := ⟨t.val * 1280 + (y 1).val, hv⟩
  let j : Fin 101120 := ⟨t.val * 1280 + (y 1).val, by omega⟩
  have hemb : ((cfg0.win 3).blk t).view.emb y = ix2 p v := by
    funext a; apply Fin.ext
    match a with
    | ⟨0, _⟩ => show win0_3.index t (0 : Fin 2) * 2048 + 1 * (y 0).val = (y 0).val; omega
    | ⟨1, _⟩ => show win0_3.index t (1 : Fin 2) * 1280 + 1 * (y 1).val = t.val * 1280 + (y 1).val; omega
  have hinj : (cfg0.win 3).xinj (grid0.coords t) y = ix2 p q := by
    funext a; apply Fin.ext
    match a with
    | ⟨0, _⟩ => rfl
    | ⟨1, _⟩ => rfl
  show k0_pay1 (F := Ideal) (iblk m c 0 t) (iblk m c 1 t) (iblk m c 2 t) ((cfg0.win 3).xinj (grid0.coords t) y)
    = result m c (((cfg0.win 3).blk t).view.emb y)
  rw [hinj, hemb, Body.tile_apply, blk2_apply m c t q j rfl, biasRow_apply m c j v rfl]
  unfold result
  rw [logits_apply]
  refine congrArg (· + aBp m c (ix1 v)) (Finset.sum_congr rfl fun k _ => ?_)
  rw [blk0_apply, blk1_apply m c t k q j rfl, fusedArr_apply, weightArr_apply m c k j v rfl]

/-- An index of the result is in point `t`'s block iff each coordinate is in the part of the tile inside the array. -/
theorem mem_blk (t : Fin cfg0.N) (i : S2048x100000.Idx) :
    i ∈ ((cfg0.win 3).blk t).view.set ↔ ∀ a : Fin 2, win0_3.index t a * S2048x1280.size a ≤ (i a).val
      ∧ (i a).val < win0_3.index t a * S2048x1280.size a + win0_3.xsize (grid0.coords t) a := by
  show i ∈ ((View.whole main_v23).slice (win0_3.rect t)).set ↔ _
  rw [View.set_slice_whole, Rect.mem_set_unit]
  exact Iff.rfl

/-- Column `v` of the result lies in the block of point `v / 1280`. -/
theorem cover (i : S2048x100000.Idx) :
    ∃ t : Fin cfg0.N, (cfg0.win 3).flush t = true ∧ i ∈ ((cfg0.win 3).blk t).view.set := by
  have h0 : (i 0).val < 2048 := (i 0).isLt
  have h1 : (i 1).val < 100000 := (i 1).isLt
  have hN : (i 1).val / 1280 < cfg0.N := by show (i 1).val / 1280 < 79; omega
  refine ⟨⟨(i 1).val / 1280, hN⟩, flush0_3 _, ?_⟩
  rw [mem_blk]
  obtain ⟨-, -, -, -, -, -, e30, e31⟩ := idx_facts ⟨(i 1).val / 1280, hN⟩
  obtain ⟨x0, x1, x2⟩ := cut_facts ⟨(i 1).val / 1280, hN⟩
  have e31' : win0_3.index ⟨(i 1).val / 1280, hN⟩ (1 : Fin 2) = (i 1).val / 1280 := e31
  have x1' : (i 1).val / 1280 * 1280 + win0_3.xsize (grid0.coords ⟨(i 1).val / 1280, hN⟩) (1 : Fin 2) ≤ 100000 := x1
  have x2' : win0_3.xsize (grid0.coords ⟨(i 1).val / 1280, hN⟩) (1 : Fin 2) = 1280
      ∨ (i 1).val / 1280 * 1280 + win0_3.xsize (grid0.coords ⟨(i 1).val / 1280, hN⟩) (1 : Fin 2) = 100000 := x2
  intro a
  match a with
  | ⟨0, _⟩ =>
    show win0_3.index ⟨(i 1).val / 1280, hN⟩ (0 : Fin 2) * 2048 ≤ (i 0).val
      ∧ (i 0).val < win0_3.index ⟨(i 1).val / 1280, hN⟩ (0 : Fin 2) * 2048 + win0_3.xsize (grid0.coords ⟨(i 1).val / 1280, hN⟩) (0 : Fin 2)
    omega
  | ⟨1, _⟩ =>
    show win0_3.index ⟨(i 1).val / 1280, hN⟩ (1 : Fin 2) * 1280 ≤ (i 1).val
      ∧ (i 1).val < win0_3.index ⟨(i 1).val / 1280, hN⟩ (1 : Fin 2) * 1280 + win0_3.xsize (grid0.coords ⟨(i 1).val / 1280, hN⟩) (1 : Fin 2)
    omega

/-- The result array after the run is the logits of the arguments. -/
theorem final (c : Dev nD) : (dats m 0 c).arrAt 3 cfg0.N = result m c :=
  (dats m 0 c).arrAt_eq_of_cover 3 (result m c) (fun t _ => flushed_eq m c t) cover

/-- Every weakly fair execution of the kernel's program terminates with the result array at the logits of the arguments
    and the arguments unchanged. -/
theorem run : θ_run defs (onTc (τ := τ) (main (F := Ideal))) ⟨m, fun _ => 0, ρ⟩ fun r => ∀ c : Dev nD,
      r.2.mem ((c : Thread nD τ).loc main_v23) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Blocks

end
-- ==== Proof.RefSide.lean ====
/-
  The reference computes the logits.

  The reference joins the user rows and the pooled rows side by side into a 2048 × 1024 array, multiplies by the whole
  fuse weight, adds the fuse bias, multiplies by the projection weight and adds the projection bias. The sum over the
  1024 joined columns splits at column 512 into the user rows against the first 512 rows of the fuse weight plus the
  pooled rows against the last 512 — an identity of finite sums that holds for any extended reals — so entry by entry
  the reference's result is `logits` of its arguments, with the pooled array the reference's own mean-pooling stage.
-/
import proofs.«101101_j44092134261038_2_alg».proof.Proof.Gen.ReferenceIdeal.Read
import proofs.«101101_j44092134261038_2_alg».proof.Proof.Spec

noncomputable section

namespace Cert.RefSide

open Cert.ReferenceIdeal Cert.ReferenceIdeal.Gen Cert.ReferenceIdeal.Read Idealize.ShloMosaic Idealize.ShloMosaic.ValueIdx
open Cert.Lib.CatDot Cert.Logits

/-- The fuse product contracts the 1024 joined columns against the weight's 1024 rows. -/
theorem dot_fuse_plain : dot_S2048x1024_S1024x512_S2048x512_1_0_0_1_n_n = DotDims.plain 2048 (512 + 512) 512 := rfl

/-- The projection contracts the 512 fused columns against the weight's 512 rows. -/
theorem dot_proj_plain : dot_S2048x512_S512x100000_S2048x100000_1_0_0_1_n_n = DotDims.plain 2048 512 100000 := rfl

/-- The joined operand against the whole fuse weight, plus the bias, is the fused representation. -/
theorem fuse_eq (U R : FVec Ideal S2048x512 .f32) (W : FVec Ideal S1024x512 .f32) (bf : FVec Ideal S512 .f32) :
    addf (Host.dotGeneral dot_S2048x1024_S1024x512_S2048x512_1_0_0_1_n_n none
        (concatenate S2048x1024 1 [⟨S2048x512, U⟩, ⟨S2048x512, R⟩] concatenates_S2048x512_S2048x512_S2048x1024_d1) W)
      (broadcastInDim S2048x512 ![0, 1] bcast_S1x512_S2048x512_0_1 (broadcastInDim S1x512 ![1] bcast_S512_S1x512_1 bf))
    = fused U R W bf :=
  host_concat_lin2 (M := 2048) (K := 512) (K' := 512) (N := 512) _ dot_fuse_plain U R W bf
    concatenates_S2048x512_S2048x512_S2048x1024_d1 bcast_S512_S1x512_1 bcast_S1x512_S2048x512_0_1

/-- A 2048 × 512 array against the projection weight, plus the projection bias. -/
theorem proj_eq (X : FVec Ideal S2048x512 .f32) (Wp : FVec Ideal S512x100000 .f32) (bp : FVec Ideal S100000 .f32) :
    addf (Host.dotGeneral dot_S2048x512_S512x100000_S2048x100000_1_0_0_1_n_n none X Wp)
      (broadcastInDim S2048x100000 ![0, 1] bcast_S1x100000_S2048x100000_0_1
        (broadcastInDim S1x100000 ![1] bcast_S100000_S1x100000_1 bp))
    = Cert.Lib.BiasDot.lin X Wp bp :=
  host_lin (M := 2048) (K := 512) (N := 100000) _ dot_proj_plain X Wp bp bcast_S100000_S1x100000_1
    bcast_S1x100000_S2048x100000_0_1

/-- The reference's last stage is the logits of its arguments, the pooled array its own mean-pooling stage. -/
theorem result_eq (x0 : FVec Ideal S2048x512 .f32) (x1 : (⟨S2048x50, .i32⟩ : BufTy).Contents (Elt Ideal))
    (x2 : FVec Ideal S100000x512 .f32) (x3 : FVec Ideal S1024x512 .f32) (x4 : FVec Ideal S512 .f32)
    (x5 : FVec Ideal S512x100000 .f32) (x6 : FVec Ideal S100000 .f32) :
    val_main_v18 (F := Ideal) x0 x1 x2 x3 x4 x5 x6 = logits x0 (val_main_v9 (F := Ideal) x1 x2) x3 x4 x5 x6 := by
  unfold val_main_v18 val_main_v17 val_main_v16 val_main_v15 val_main_v14 val_main_v13 val_main_v12 val_main_v11
    val_main_v10
  rw [fuse_eq, proj_eq]
  rfl

end Cert.RefSide

end
-- ==== Proof.lean ====
/-
  A retrieval-augmented recommender's logits: the tiled projection kernel against the plain reference.

  Both programs mean-pool fifty gathered embedding rows per batch entry into `R` (2048 × 512), by the same gather, sum
  and division by fifty. The reference joins the user rows `U` and `R` side by side, multiplies by the whole fuse
  weight `W` (1024 × 512), adds the fuse bias, multiplies by the projection weight `Wp` (512 × 100000) and adds the
  projection bias. The kernel's program instead multiplies `U` by the first 512 rows of `W` and `R` by the last 512
  and adds the two products and the bias; pads `Wp` and the projection bias with zeros to 101120 columns; and computes
  the projection one tile of 1280 columns per grid point, seventy-nine tiles, the last one cut at column 100000 when
  it is written back.

  On the extended reals the two results are equal entry by entry:
    * the sum over the 1024 joined columns splits at column 512 into the two half sums — an identity of finite sums,
      valid at infinite entries as well, so finiteness of the inputs is never used;
    * narrowing to the 16-bit format is the identity;
    * a product into a zero accumulator, tile by tile, is the same sum over the 512 fused columns as the whole product,
      and the bias row repeated down the rows adds the bias of the entry's column;
    * every column written back is below 100000, where the padded weight and bias are the arguments themselves.
  The kernel's program is its own idealization (no operation was rewritten), so that claim is trivial, and the three
  termination-and-unchanged-arguments claims are the generated runs.
-/
import proofs.«101101_j44092134261038_2_alg».proof.Defs
import proofs.«101101_j44092134261038_2_alg».proof.Proof.Gen.Kernel
import proofs.«101101_j44092134261038_2_alg».proof.Proof.Gen.Kernel.Skeleton
import proofs.«101101_j44092134261038_2_alg».proof.Proof.Gen.Kernel.Launch
import proofs.«101101_j44092134261038_2_alg».proof.Proof.Gen.Kernel.Points
import proofs.«101101_j44092134261038_2_alg».proof.Proof.Gen.Kernel.Frame
import proofs.«101101_j44092134261038_2_alg».proof.Proof.Gen.KernelIdeal
import proofs.«101101_j44092134261038_2_alg».proof.Proof.Gen.KernelIdeal.Skeleton
import proofs.«101101_j44092134261038_2_alg».proof.Proof.Gen.KernelIdeal.Launch
import proofs.«101101_j44092134261038_2_alg».proof.Proof.Gen.KernelIdeal.Points
import proofs.«101101_j44092134261038_2_alg».proof.Proof.Gen.KernelIdeal.Frame
import proofs.«101101_j44092134261038_2_alg».proof.Proof.Gen.ReferenceIdeal
import proofs.«101101_j44092134261038_2_alg».proof.Proof.Gen.Pre_finite_inputs
import proofs.«101101_j44092134261038_2_alg».proof.Proof.Gen.KernelIdeal.Value
import proofs.«101101_j44092134261038_2_alg».proof.Proof.Gen.ReferenceIdeal.Run
import proofs.«101101_j44092134261038_2_alg».proof.Proof.Gen.ReferenceIdeal.Read
import proofs.«101101_j44092134261038_2_alg».proof.Proof.Blocks
import proofs.«101101_j44092134261038_2_alg».proof.Proof.RefSide
import Idealize.ShloMosaic.Adequacy
import Idealize.ShloMosaic.Init

noncomputable section

namespace Cert.Proof

open Idealize.ShloMosaic Idealize.ShloMosaic.TcCoe Idealize.SL.Sem

/-- The word-level kernel's program terminates without a fault and leaves its arguments unchanged. -/
theorem frame_kernel [Cert.Kernel.Facts] [Cert.Pre_finite_inputs.Facts] : Cert.frame_Kernel :=
  fun m ρ _ => Cert.Kernel.Gen.frame m ρ

/-- So does the idealized kernel's. -/
theorem frame_kernelIdeal [Cert.KernelIdeal.Facts] [Cert.Pre_finite_inputs.Facts] : Cert.frame_KernelIdeal :=
  fun m ρ _ => Cert.KernelIdeal.Gen.frame m ρ

/-- And the reference's: its run with the result dropped. -/
theorem frame_referenceIdeal [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- The two programs mean-pool the retrieved rows by the same operations. -/
theorem pooled_eq [Cert.KernelIdeal.Facts] [Cert.ReferenceIdeal.Facts]
    (idx : (⟨Cert.ReferenceIdeal.S2048x50, .i32⟩ : BufTy).Contents (Elt Ideal))
    (E : FVec Ideal Cert.ReferenceIdeal.S100000x512 .f32) :
    Cert.ReferenceIdeal.Read.val_main_v9 (F := Ideal) idx E = Cert.KernelIdeal.HostSide.pooled idx E := rfl

/-- From memories that agree on the arguments both idealized programs end with the logits of those arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [h0, h1, h2, h3, h4, h5, h6, Cert.ReferenceIdeal.Read.val_main_v18_eq, Cert.RefSide.result_eq, pooled_eq]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
